-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64x64 : Shape := ⟨4, ![16, 128, 64, 64]⟩
abbrev S65536x128 : Shape := ⟨2, ![65536, 128]⟩
abbrev S_ : Shape := ⟨0, ![]⟩

class Facts : Prop where
  bcast_S_S16x128x64x64 : S_.BroadcastsInDim S16x128x64x64 (![] : Fin 0 → Fin S16x128x64x64.rank)
  reducesTo_S16x128x64x64_S_d0_1_2_3 : S16x128x64x64.ReducesTo [0, 1, 2, 3] S_
  h_S_ : 0 < S_.numel
  bcast_S_S65536x128 : S_.BroadcastsInDim S65536x128 (![] : Fin 0 → Fin S65536x128.rank)
  reducesTo_S65536x128_S_d0_1 : S65536x128.ReducesTo [0, 1] S_

variable [Facts]

def fn {F : FTy → Type} [FloatOps F] (main_arg0 : FVec F S16x128x64x64 .f32) (main_arg1 : FVec F S65536x128 .f32) (main_arg2 : FVec F S65536x128 .f32) : IVec S_ 1 :=
  let main_v0 : FVec F S16x128x64x64 .f32 := Host.absf main_arg0
  let main_cst : FVec F S_ .f32 := constant S_ .f32 0x7F800000#32
  let main_v1 : FVec F S16x128x64x64 .f32 := broadcastInDim S16x128x64x64 ![] bcast_S_S16x128x64x64 main_cst
  let main_v2 : IVec S16x128x64x64 1 := cmpf .olt main_v0 main_v1
  let main_c : IVec S_ 1 := constantI S_ 1 1#1
  let main_v3 : IVec S_ 1 := (fun x v => Host.reduce IntOp.andi x v reducesTo_S16x128x64x64_S_d0_1_2_3 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x128 .f32 := Host.absf main_arg2
  let main_cst_2 : FVec F S_ .f32 := constant S_ .f32 0x7F800000#32
  let main_v10 : FVec F S65536x128 .f32 := broadcastInDim S65536x128 ![] bcast_S_S65536x128 main_cst_2
  let main_v11 : IVec S65536x128 1 := cmpf .olt main_v9 main_v10
  let main_c_3 : IVec S_ 1 := constantI S_ 1 1#1
  let main_v12 : IVec S_ 1 := (fun x v => Host.reduce IntOp.andi x v reducesTo_S65536x128_S_d0_1 h_S_) main_v11 main_c_3
  let main_v13 : IVec S_ 1 := andi main_v8 main_v12
  main_v13
-- ==== Kernel.lean ====
abbrev S16x128x64x64 : Shape := ⟨4, ![16, 128, 64, 64]⟩
abbrev S65536x128 : Shape := ⟨2, ![65536, 128]⟩
abbrev S1x128 : Shape := ⟨2, ![1, 128]⟩
abbrev S1x128x64x64 : Shape := ⟨4, ![1, 128, 64, 64]⟩
abbrev S128x64x64 : Shape := ⟨3, ![128, 64, 64]⟩
abbrev S128 : Shape := ⟨1, ![128]⟩
abbrev S_ : Shape := ⟨0, ![]⟩
abbrev S1x1 : Shape := ⟨2, ![1, 1]⟩
abbrev S4096x128 : Shape := ⟨2, ![4096, 128]⟩
abbrev S64x64x128 : Shape := ⟨3, ![64, 64, 128]⟩
abbrev S4096 : Shape := ⟨1, ![4096]⟩
abbrev S1x4096 : Shape := ⟨2, ![1, 4096]⟩
abbrev S1 : Shape := ⟨1, ![1]⟩

abbrev nBuf : Space → Nat
  | .hbm => 15
  | .vmem => 13
  | .smem => 0
  | _ => 0

abbrev bufTy : (tb : Table) → Fin (tcTables nBuf tb) → BufTy
  | .hbm, ⟨0, _⟩ => ⟨S16x128x64x64, .f32⟩
  | .hbm, ⟨1, _⟩ => ⟨S65536x128, .f32⟩
  | .hbm, ⟨2, _⟩ => ⟨S65536x128, .f32⟩
  | .hbm, ⟨3, _⟩ => ⟨S1x128, .f32⟩
  | .hbm, ⟨4, _⟩ => ⟨S1x128, .f32⟩
  | .hbm, ⟨5, _⟩ => ⟨S_, .f32⟩
  | .hbm, ⟨6, _⟩ => ⟨S1x128, .f32⟩
  | .hbm, ⟨7, _⟩ => ⟨S1x128, .f32⟩
  | .hbm, ⟨8, _⟩ => ⟨S_, .f32⟩
  | .hbm, ⟨9, _⟩ => ⟨S1x128, .f32⟩
  | .hbm, ⟨10, _⟩ => ⟨S1x128, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x128x64x64, .f32⟩
  | .local _ .vmem, ⟨1, _⟩ => ⟨S1x128x64x64, .f32⟩
  | .local _ .vmem, ⟨2, _⟩ => ⟨S1x128, .f32⟩
  | .local _ .vmem, ⟨3, _⟩ => ⟨S1x128, .f32⟩
  | .local _ .vmem, ⟨4, _⟩ => ⟨S1x128x64x64, .f32⟩
  | .local _ .vmem, ⟨5, _⟩ => ⟨S1x128x64x64, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S1x128, .f32⟩
  | .local _ .vmem, ⟨11, _⟩ => ⟨S1x128, .f32⟩
  | .local _ .vmem, ⟨12, _⟩ => ⟨S1x1, .f32⟩
  | _, _ => ⟨S16x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x128x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S1x128_S1x128_0_0 : ∀ a, (![0, 0] : Fin 2 → Nat) a + S1x128.size a ≤ S1x128.size a
  h_S1x128 : 0 < S1x128.numel
  inb_S1x128x64x64_S1x128x64x64_0_0_0_0 : ∀ a, (![0, 0, 0, 0] : Fin 4 → Nat) a + S1x128x64x64.size a ≤ S1x128x64x64.size a
  h_S1x128x64x64 : 0 < S1x128x64x64.numel
  shapeCasts_S1x128x64x64_S128x64x64 : S1x128x64x64.ShapeCasts S128x64x64
  reduces_S128x64x64_S128 : S128x64x64.Reduces [1, 2] S128
  shapeCasts_S1x128_S1x128 : S1x128.ShapeCasts S1x128
  shapeCasts_S128_S1x128 : S128.ShapeCasts S1x128
  bcast_S_S1x128 : S_.BroadcastsInDim S1x128 (![] : Fin 0 → Fin S1x128.rank)
  inb_S1x1_S1x1_0_0 : ∀ a, (![0, 0] : Fin 2 → Nat) a + S1x1.size a ≤ S1x1.size a
  h_S1x1 : 0 < S1x1.numel
  transposes_S128x64x64_p1_2_0_S64x64x128 : S128x64x64.Transposes [1, 2, 0] S64x64x128
  shapeCasts_S64x64x128_S4096x128 : S64x64x128.ShapeCasts S4096x128
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  broadcasts_S1x128_S4096x128 : S1x128.Broadcasts S4096x128
  shapeCasts_S4096_S1x4096 : S4096.ShapeCasts S1x4096
  reduces_S1x4096_S1 : S1x4096.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x64.size a ≤ S16x128x64x64.size a
  hwx0_0 : ∀ i : grid0.Coords, EltTy.bits .f32 = 32 ∨ (Rect.block (s := S16x128x64x64) S1x128x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64x64.size a ≤ S16x128x64x64.size a
  hwx1_0 : ∀ i : grid1.Coords, EltTy.bits .f32 = 32 ∨ (Rect.block (s := S16x128x64x64) S1x128x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S65536x128.size a
  hwx1_1 : ∀ i : grid1.Coords, EltTy.bits .f32 = 32 ∨ (Rect.block (s := S65536x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S65536x128.size a
  hwx1_2 : ∀ i : grid1.Coords, EltTy.bits .f32 = 32 ∨ (Rect.block (s := S65536x128) S4096x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

abbrev win0_0 : Pipeline.Window sig grid0 :=
  Pipeline.Window.ofSpec (Memref.whole main_arg0) S1x128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x128x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x128x64x64 : Shape := ⟨4, ![16, 128, 64, 64]⟩
abbrev S65536x128 : Shape := ⟨2, ![65536, 128]⟩
abbrev S16x64x64x128 : Shape := ⟨4, ![16, 64, 64, 128]⟩
abbrev S_ : Shape := ⟨0, ![]⟩
abbrev S65536 : Shape := ⟨1, ![65536]⟩
abbrev S128 : Shape := ⟨1, ![128]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S16x128x64x64, .f32⟩
  | .hbm, ⟨1, _⟩ => ⟨S65536x128, .f32⟩
  | .hbm, ⟨2, _⟩ => ⟨S65536x128, .f32⟩
  | .hbm, ⟨3, _⟩ => ⟨S16x64x64x128, .f32⟩
  | .hbm, ⟨4, _⟩ => ⟨S65536x128, .f32⟩
  | .hbm, ⟨5, _⟩ => ⟨S65536x128, .f32⟩
  | .hbm, ⟨6, _⟩ => ⟨S65536x128, .f32⟩
  | .hbm, ⟨7, _⟩ => ⟨S65536x128, .f32⟩
  | .hbm, ⟨8, _⟩ => ⟨S65536x128, .f32⟩
  | .hbm, ⟨9, _⟩ => ⟨S65536x128, .f32⟩
  | .hbm, ⟨10, _⟩ => ⟨S_, .f32⟩
  | .hbm, ⟨11, _⟩ => ⟨S65536, .f32⟩
  | .hbm, ⟨12, _⟩ => ⟨S_, .f32⟩
  | .hbm, ⟨13, _⟩ => ⟨S65536, .f32⟩
  | .hbm, ⟨14, _⟩ => ⟨S65536, .f32⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S65536x128, .f32⟩
  | .hbm, ⟨21, _⟩ => ⟨S_, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S65536x128, .f32⟩
  | .hbm, ⟨28, _⟩ => ⟨S65536x128, .f32⟩
  | .hbm, ⟨29, _⟩ => ⟨S1x128, .f32⟩
  | .hbm, ⟨30, _⟩ => ⟨S65536x128, .f32⟩
  | .hbm, ⟨31, _⟩ => ⟨S65536x128, .f32⟩
  | .hbm, ⟨32, _⟩ => ⟨S1x128, .f32⟩
  | .hbm, ⟨33, _⟩ => ⟨S65536x128, .f32⟩
  | .hbm, ⟨34, _⟩ => ⟨S65536x128, .f32⟩
  | .hbm, ⟨35, _⟩ => ⟨S65536x128, .f32⟩
  | .hbm, ⟨36, _⟩ => ⟨S65536x128, .f32⟩
  | .hbm, ⟨37, _⟩ => ⟨S65536x128, .f32⟩
  | .hbm, ⟨38, _⟩ => ⟨S_, .f32⟩
  | .hbm, ⟨39, _⟩ => ⟨S65536, .f32⟩
  | .hbm, ⟨40, _⟩ => ⟨S_, .f32⟩
  | .hbm, ⟨41, _⟩ => ⟨S65536, .f32⟩
  | .hbm, ⟨42, _⟩ => ⟨S65536, .f32⟩
  | .hbm, ⟨43, _⟩ => ⟨S65536, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S16x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  transposes_S16x128x64x64_S16x64x64x128_0_2_3_1 : S16x128x64x64.Transposes [0, 2, 3, 1] S16x64x64x128
  shapeCasts_S16x64x64x128_S65536x128 : S16x64x64x128.ShapeCasts S65536x128
  reducesTo_S65536x128_S65536_d1 : S65536x128.ReducesTo [1] S65536
  h_S_ : 0 < S_.numel
  bcast_S_S65536 : S_.BroadcastsInDim S65536 (![] : Fin 0 → Fin S65536.rank)
  reducesTo_S65536x128_S128_d0 : S65536x128.ReducesTo [0] S128
  bcast_S_S128 : S_.BroadcastsInDim S128 (![] : Fin 0 → Fin S128.rank)
  bcast_S_S65536x128 : S_.BroadcastsInDim S65536x128 (![] : Fin 0 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  reducesTo_S65536_S_d0 : S65536.ReducesTo [0] S_

variable [Facts₀]

class Facts : Prop extends Facts₀ where

variable [Facts]
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.Spec.lean ====
/-
  The quantity both programs compute, written once over the extended reals.

  The features `x` have shape [16, 128, 64, 64] (batch, channel, height, width); the predicted means `mu` and
  log-variances `lv` have shape [65536, 128]: one row per (batch, height, width) position, row
  `n = 4096·b + 64·h + w`, one column per channel.  `flat x n d` is the feature of position `n` on channel `d`.
  With `m1 d` and `m2 d` the means over all positions of `flat · d` and of its square, and the weight
  `wt n d = exp (-lv n d)`, a row contributes

      rowTerm n = (-1/2) · Σ_d (flat n d - mu n d)² · wt n d  -  (-1/2) · Σ_d wt n d · (m2 d - 2 · mu n d · m1 d + mu n d²)

  and the result is the mean of `rowTerm` over the 65536 rows.  The three float constants are kept as the words the
  programs print (65536, -1/2, 2); nothing below depends on their values.

  Every sum is a finite sum in the commutative monoid of the extended reals, so the order and the grouping in which a
  program adds the terms do not matter; `sum_rows` and `sum_positions` are the two regroupings used: the 65536 rows
  taken in 16 consecutive blocks of 4096, and a block's 4096 positions taken as 64 × 64.
-/
import Idealize.ShloMosaic.PureOps.Ideal
import Idealize.ShloMosaic.Lib.ValueIdx
import proofs.«125531_j8976481649059_1_alg».proof.Proof.LibBlockedSum

noncomputable section

namespace Cert.Club

open Idealize.ShloMosaic Idealize.ShloMosaic.ValueIdx

/-- The features' shape and the shape of the two per-position tables. -/
abbrev XS : Shape := ⟨4, ![16, 128, 64, 64]⟩
abbrev RS : Shape := ⟨2, ![65536, 128]⟩

/-- The three constants, as the words both programs carry. -/
abbrev cN : EReal := Ideal.ofBits .f32 0x47800000#32
abbrev cHalf : EReal := Ideal.ofBits .f32 0xBF000000#32
abbrev cTwo : EReal := Ideal.ofBits .f32 0x40000000#32

theorem pos_lt (n : Fin 65536) : n.val / 4096 < 16 ∧ n.val / 64 % 64 < 64 ∧ n.val % 64 < 64 := by
  have := n.isLt; omega

/-- The batch, height and width of position `n = 4096·b + 64·h + w`. -/
def posB (n : Fin 65536) : Fin 16 := ⟨n.val / 4096, (pos_lt n).1⟩
def posH (n : Fin 65536) : Fin 64 := ⟨n.val / 64 % 64, (pos_lt n).2.1⟩
def posW (n : Fin 65536) : Fin 64 := ⟨n.val % 64, (pos_lt n).2.2⟩

variable (x : XS.Idx → EReal) (mu lv : RS.Idx → EReal)

/-- The feature of position `n` on channel `d`. -/
def flat (n : Fin 65536) (d : Fin 128) : EReal := x (ix4 (posB n) d (posH n) (posW n))

/-- The mean over all positions of channel `d`, and of its square. -/
def m1 (d : Fin 128) : EReal := Ideal.div (∑ n : Fin 65536, flat x n d) cN
def m2 (d : Fin 128) : EReal := Ideal.div (∑ n : Fin 65536, flat x n d * flat x n d) cN

/-- The inverse variance of position `n` on channel `d`. -/
def wt (n : Fin 65536) (d : Fin 128) : EReal := Ideal.exp (-(lv (ix2 n d)))

/-- Row `n`'s two weighted sums over the channels. -/
def posSum (n : Fin 65536) : EReal :=
  ∑ d : Fin 128, (flat x n d - mu (ix2 n d)) * (flat x n d - mu (ix2 n d)) * wt lv n d
def negSum (n : Fin 65536) : EReal :=
  ∑ d : Fin 128, wt lv n d * (m2 x d - cTwo * mu (ix2 n d) * m1 x d + mu (ix2 n d) * mu (ix2 n d))

/-- Row `n`'s contribution. -/
def rowTerm (n : Fin 65536) : EReal := cHalf * posSum x mu lv n - cHalf * negSum x mu lv n

/-- The result: the mean of the rows' contributions. -/
def loss : EReal := Ideal.div (∑ n : Fin 65536, rowTerm x mu lv n) cN

/-! ## The two regroupings -/

/-- Row `q` of block `b` is a position of batch `b`, and its height and width are `q / 64` and `q % 64`. -/
theorem blk_pos (b : Fin 16) (q : Fin 4096) :
    posB (BlockedSum.blkIdx (n := 65536) (by decide) 4096 b.val q) = b
    ∧ (posH (BlockedSum.blkIdx (n := 65536) (by decide) 4096 b.val q)).val = q.val / 64
    ∧ (posW (BlockedSum.blkIdx (n := 65536) (by decide) 4096 b.val q)).val = q.val % 64 := by
  have hv := BlockedSum.blkIdx_val (n := 65536) (nb := 16) (bs := 4096) (by decide) (by decide) b.isLt q
  have hb := b.isLt
  have hq := q.isLt
  refine ⟨Fin.ext ?_, ?_, ?_⟩
  · show (BlockedSum.blkIdx _ 4096 b.val q).val / 4096 = b.val
    rw [hv]; omega
  · show (BlockedSum.blkIdx _ 4096 b.val q).val / 64 % 64 = q.val / 64
    rw [hv]; omega
  · show (BlockedSum.blkIdx _ 4096 b.val q).val % 64 = q.val % 64
    rw [hv]; omega

/-- A sum over the 65536 rows is the sum, over the 16 blocks in order, of the sums over each block's 4096 rows. -/
theorem sum_rows {M : Type*} [AddCommMonoid M] (g : Fin 65536 → M) :
    ∑ n : Fin 65536, g n = ∑ b ∈ Finset.range 16, BlockedSum.blockSum (n := 65536) (by decide) 4096 g b :=
  (BlockedSum.partialSum_last (n := 65536) (nb := 16) (bs := 4096) (by decide) (by decide) g (k := 15) rfl).symm

/-- A sum over a block's 4096 rows is the double sum over the 64 heights and the 64 widths. -/
theorem sum_positions {M : Type*} [AddCommMonoid M] (g : Fin 64 → Fin 64 → M) :
    ∑ q : Fin 4096, g ⟨q.val / 64, by have := q.isLt; omega⟩ ⟨q.val % 64, Nat.mod_lt _ (by decide)⟩
      = ∑ h : Fin 64, ∑ w : Fin 64, g h w := by
  rw [← Fintype.sum_prod_type (f := fun p : Fin 64 × Fin 64 => g p.1 p.2)]
  refine (Equiv.sum_comp (finProdFinEquiv (m := 64) (n := 64)).symm (fun p : Fin 64 × Fin 64 => g p.1 p.2)).symm.trans ?_
  exact Finset.sum_congr rfl fun q _ => rfl

end Cert.Club

end
-- ==== Proof.Ref.lean ====
import proofs.«125531_j8976481649059_1_alg».proof.Proof.Gen.ReferenceIdeal.Run
import proofs.«125531_j8976481649059_1_alg».proof.Proof.Gen.ReferenceIdeal.Read
import proofs.«125531_j8976481649059_1_alg».proof.Proof.Spec
import Idealize.ShloMosaic.Lib.ValueIdx

/-
  The reference program computes the common quantity `Cert.Club.loss`.

  The program is read one operation at a time at an index.  Its first two operations move the channel axis of the
  features last and flatten (batch, height, width) into one row axis: element `(n, d)` of the result is the feature of
  position `n` on channel `d`, because `128·n + d` has quotient `n` and remainder `d` by 128, and `n` splits as
  `4096·b + 64·h + w`.  The two column means are sums down the rows divided by the row count; they are then repeated
  along the rows.  Each row's two weighted sums run over the channels, every sum starts from the zero word, and the last
  sum runs over all rows, which are the indices of a vector of length 65536.
-/

noncomputable section

namespace Cert.Club.RefSide

open Cert.ReferenceIdeal Cert.ReferenceIdeal.Read Idealize.ShloMosaic Idealize.ShloMosaic.ValueIdx

/-- The indices of a vector of length `n` are its coordinates … -/
def idxEquiv1 {n : Nat} : (⟨1, ![n]⟩ : Shape).Idx ≃ Fin n where
  toFun i := i 0
  invFun a := ix1 a
  left_inv i := (eq_ix1 i).symm
  right_inv _ := rfl

/-- … so a sum over them is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable (x0 : (⟨S16x128x64x64, .f32⟩ : BufTy).Contents (Elt Ideal))
  (x1 x2 : (⟨S65536x128, .f32⟩ : BufTy).Contents (Elt Ideal))

/-- The transposed and flattened features at `(n, d)`: the feature of position `n` on channel `d`. -/
theorem flat_read (n : Fin 65536) (d : Fin 128) :
    val_main_v1 (F := Ideal) x0 (ix2 n d) = Cert.Club.flat x0 n d := by
  rw [val_main_v1_apply, val_main_v0_apply]
  unfold Cert.Club.flat
  refine congrArg x0 (funext fun a => Fin.ext ?_)
  have hn := n.isLt
  have hd := d.isLt
  match a with
  | ⟨0, _⟩ => show (n.val * 128 + d.val) / 524288 = n.val / 4096; omega
  | ⟨1, _⟩ => show (n.val * 128 + d.val) % 128 = d.val; omega
  | ⟨2, _⟩ => show (n.val * 128 + d.val) / 8192 % 64 = n.val / 64 % 64; omega
  | ⟨3, _⟩ => show (n.val * 128 + d.val) / 128 % 64 = n.val % 64; omega

/-- The column sum of the features starts from zero and is divided by the row count: the mean `m1`. -/
theorem m1_read (d : Fin 128) : val_main_v12 (F := Ideal) x0 (ix1 d) = Cert.Club.m1 x0 d := by
  rw [val_main_v12_apply, val_main_v10_apply, val_main_v11_apply, val_main_cst_2_apply, val_main_cst_1_apply]
  simp only [Ideal.hostDivf_def, Ideal.ofBits_def, Ideal.ofBits_zero_f32, zero_add]
  unfold Cert.Club.m1
  have hs : ∀ k : Fin 65536, val_main_v1 (F := Ideal) x0 (idx_main_v10 (ix1 d) k) = Cert.Club.flat x0 k d := by
    intro k
    have hk : idx_main_v10 (ix1 d) k = ix2 k d :=
      funext fun a => Fin.ext (by match a with | ⟨0, _⟩ => rfl | ⟨1, _⟩ => rfl)
    rw [hk]
    exact flat_read x0 k d
  simp only [hs]

/-- The column sum of the squared features, likewise: the mean `m2`. -/
theorem m2_read (d : Fin 128) : val_main_v16 (F := Ideal) x0 (ix1 d) = Cert.Club.m2 x0 d := by
  rw [val_main_v16_apply, val_main_v14_apply, val_main_v15_apply, val_main_cst_4_apply, val_main_cst_3_apply]
  simp only [Ideal.hostDivf_def, Ideal.ofBits_def, Ideal.ofBits_zero_f32, zero_add]
  unfold Cert.Club.m2
  have hs : ∀ k : Fin 65536, val_main_v13 (F := Ideal) x0 (idx_main_v14 (ix1 d) k)
      = Cert.Club.flat x0 k d * Cert.Club.flat x0 k d := by
    intro k
    have hk : idx_main_v14 (ix1 d) k = ix2 k d :=
      funext fun a => Fin.ext (by match a with | ⟨0, _⟩ => rfl | ⟨1, _⟩ => rfl)
    rw [hk, val_main_v13_apply, flat_read x0 k d]
    rfl
  simp only [hs]

/-- The first mean repeated along the rows reads `m1 d` at `(n, d)`. -/
theorem m1_rows (n : Fin 65536) (d : Fin 128) : val_main_v20 (F := Ideal) x0 (ix2 n d) = Cert.Club.m1 x0 d := by
  rw [val_main_v20_apply, val_main_v19_apply]
  have hk : idx_main_v19 (idx_main_v20 (ix2 n d)) = ix1 d :=
    funext fun a => Fin.ext (by match a with | ⟨0, _⟩ => rfl)
  rw [hk]
  exact m1_read x0 d

/-- The second mean repeated along the rows reads `m2 d` at `(n, d)`. -/
theorem m2_rows (n : Fin 65536) (d : Fin 128) : val_main_v23 (F := Ideal) x0 (ix2 n d) = Cert.Club.m2 x0 d := by
  rw [val_main_v23_apply, val_main_v22_apply]
  have hk : idx_main_v22 (idx_main_v23 (ix2 n d)) = ix1 d :=
    funext fun a => Fin.ext (by match a with | ⟨0, _⟩ => rfl)
  rw [hk]
  exact m2_read x0 d

/-- The weight at `(n, d)`: the exponential of the negated log-variance. -/
theorem wt_read (n : Fin 65536) (d : Fin 128) : val_main_v3 (F := Ideal) x2 (ix2 n d) = Cert.Club.wt x2 n d := by
  rw [val_main_v3_apply, val_main_v2_apply]
  simp only [Ideal.hostUnary_exp_def, Ideal.hostNegf_def, Ideal.negf_def]
  rfl

/-- The first sum's term at `(n, d)`. -/
theorem pos_term (n : Fin 65536) (d : Fin 128) :
    val_main_v6 (F := Ideal) x0 x1 x2 (ix2 n d)
      = (Cert.Club.flat x0 n d - x1 (ix2 n d)) * (Cert.Club.flat x0 n d - x1 (ix2 n d)) * Cert.Club.wt x2 n d := by
  rw [val_main_v6_apply, val_main_v5_apply, val_main_v4_apply, wt_read x2 n d, flat_read x0 n d]
  simp only [Ideal.mulf_def, Ideal.subf_def]

/-- The second sum's term at `(n, d)`. -/
theorem neg_term (n : Fin 65536) (d : Fin 128) :
    val_main_v27 (F := Ideal) x0 x1 x2 (ix2 n d)
      = Cert.Club.wt x2 n d * (Cert.Club.m2 x0 d - Cert.Club.cTwo * x1 (ix2 n d) * Cert.Club.m1 x0 d
          + x1 (ix2 n d) * x1 (ix2 n d)) := by
  rw [val_main_v27_apply, val_main_v26_apply, val_main_v24_apply, val_main_v25_apply, val_main_v21_apply,
    val_main_v18_apply, val_main_v17_apply, val_main_cst_5_apply, wt_read x2 n d, m2_rows x0 n d, m1_rows x0 n d]
  simp only [Ideal.mulf_def, Ideal.subf_def, Ideal.addf_def, Ideal.ofBits_def]

/-- Row `n`'s first sum over the channels. -/
theorem posSum_read (n : Fin 65536) :
    val_main_v7 (F := Ideal) x0 x1 x2 (ix1 n) = Cert.Club.posSum x0 x1 x2 n := by
  rw [val_main_v7_apply, val_main_cst_apply]
  simp only [Ideal.ofBits_def, Ideal.ofBits_zero_f32, zero_add]
  unfold Cert.Club.posSum
  refine Finset.sum_congr rfl fun k _ => ?_
  have hk : idx_main_v7 (ix1 n) k = ix2 n k :=
    funext fun a => Fin.ext (by match a with | ⟨0, _⟩ => rfl | ⟨1, _⟩ => rfl)
  rw [hk]
  exact pos_term x0 x1 x2 n k

/-- Row `n`'s second sum over the channels. -/
theorem negSum_read (n : Fin 65536) :
    val_main_v28 (F := Ideal) x0 x1 x2 (ix1 n) = Cert.Club.negSum x0 x1 x2 n := by
  rw [val_main_v28_apply, val_main_cst_6_apply]
  simp only [Ideal.ofBits_def, Ideal.ofBits_zero_f32, zero_add]
  unfold Cert.Club.negSum
  refine Finset.sum_congr rfl fun k _ => ?_
  have hk : idx_main_v28 (ix1 n) k = ix2 n k :=
    funext fun a => Fin.ext (by match a with | ⟨0, _⟩ => rfl | ⟨1, _⟩ => rfl)
  rw [hk]
  exact neg_term x0 x1 x2 n k

/-- Row `n`'s contribution. -/
theorem rowTerm_read (n : Fin 65536) :
    val_main_v31 (F := Ideal) x0 x1 x2 (ix1 n) = Cert.Club.rowTerm x0 x1 x2 n := by
  rw [val_main_v31_apply, val_main_v9_apply, val_main_v30_apply, val_main_v8_apply, val_main_v29_apply,
    val_main_cst_0_apply, val_main_cst_7_apply, posSum_read x0 x1 x2 n, negSum_read x0 x1 x2 n]
  simp only [Ideal.mulf_def, Ideal.subf_def, Ideal.ofBits_def]
  rfl

/-- The reference's result is the common quantity. -/
theorem reference_is_loss :
    val_main_v33 (F := Ideal) x0 x1 x2 = fun _ => Cert.Club.loss x0 x1 x2 := by
  funext i
  rw [val_main_v33_apply, val_main_v32_apply, val_main_cst_9_apply, val_main_cst_8_apply]
  simp only [Ideal.hostDivf_def, Ideal.ofBits_def, Ideal.ofBits_zero_f32, zero_add]
  unfold Cert.Club.loss
  rw [sum_idx1]
  simp only [rowTerm_read]

end Cert.Club.RefSide

end
-- ==== Proof.RunValue.lean ====
/-
  The kernel program's run with its result named.  The program is two accumulating kernel launches, the first followed by a
  stretch of host operations and the second by another; its buffers' contents at the boundaries of these four segments are a fold
  from the launch memory (`W0` … `W4` of the generated frame module).  Every weakly fair execution terminates with every
  unscoped buffer at the last boundary's contents `W4`; read at the result buffer this names the program's result, and
  read at the three argument buffers it says they end as launched.
-/
import proofs.«125531_j8976481649059_1_alg».proof.Proof.Gen.KernelIdeal.Frame

set_option maxRecDepth 16384

noncomputable section

namespace Cert.Club.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the result buffer at the last boundary's contents and the three arguments as launched. -/
theorem run_result : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.Club.KRun

end
-- ==== Proof.Glue.lean ====
/-
  The host operations around the two kernels, read as values.

  After the first kernel the host divides each of its two [1,128] results by the word of 65536: these are the rows
  of statistics the second kernel is entered with; nothing else the second kernel reads is touched, so it finds the
  three arguments as launched.  After the second kernel the host reshapes its [1,1] result to a scalar and divides it
  by the same word: the program's result.
-/
import proofs.«125531_j8976481649059_1_alg».proof.Proof.Gen.KernelIdeal.Frame
import Idealize.ShloMosaic.Lib.StableHlo.Run
import Idealize.ShloMosaic.Lib.ValueIdx
import Idealize.ShloMosaic.Lib.Pipeline.Value

noncomputable section

open Idealize.ShloMosaic Idealize.ShloMosaic.TcCoe Idealize.SL.Sem Idealize.ShloMosaic.ValueIdx Idealize.ShloMosaic.StableHlo
open Idealize.ShloMosaic.Pipeline (Dat)

namespace Cert.Club.KGlue

open Cert.KernelIdeal Cert.KernelIdeal.Gen

variable (m : (ℓ : Loc nD τ sig) → Buf (Elt Ideal) ℓ) (ρ : Dev nD → PrngReg)

/-- The program's result: the second kernel's result array, reshaped to a scalar, over the word of 65536. -/
theorem result_eq (c : Dev nD) : (W4 m ρ c (Proc.devRef .tc main_v7) : S_.Idx → EReal)
    = Host.divf (F := Ideal) (shapeCast S_ (W3 m ρ c (Proc.devRef .tc main_v5) : S1x1.Idx → EReal) Facts₀.shapeCasts_S1x1_S_)
        (constant (F := Ideal) S_ .f32 0x47800000#32) := by
  show StableHlo.after hostOps2 (W3 m ρ c) (Proc.devRef .tc main_v7) = _
  after_results
  rfl

/-- The first row of statistics the second kernel finds: the first kernel's first result over the word of 65536. -/
theorem stat1_eq (c : Dev nD) : (W2 m ρ c (Proc.devRef .tc main_v2) : S1x128.Idx → EReal)
    = Host.divf (F := Ideal) (W1 m ρ c (Proc.devRef .tc main_v0_0) : S1x128.Idx → EReal)
        (broadcastInDim S1x128 ![] Facts₀.bcast_S_S1x128 (constant (F := Ideal) S_ .f32 0x47800000#32)) := by
  show StableHlo.after hostOps1 (W1 m ρ c) (Proc.devRef .tc main_v2) = _
  after_results

/-- The second row of statistics: the first kernel's second result over the same word. -/
theorem stat2_eq (c : Dev nD) : (W2 m ρ c (Proc.devRef .tc main_v4) : S1x128.Idx → EReal)
    = Host.divf (F := Ideal) (W1 m ρ c (Proc.devRef .tc main_v0_1) : S1x128.Idx → EReal)
        (broadcastInDim S1x128 ![] Facts₀.bcast_S_S1x128 (constant (F := Ideal) S_ .f32 0x47800000#32)) := by
  show StableHlo.after hostOps1 (W1 m ρ c) (Proc.devRef .tc main_v4) = _
  after_results

/-- The second kernel finds the three arguments as launched. -/
theorem arg0_eq (c : Dev nD) : W2 m ρ c (Proc.devRef .tc main_arg0) = m ((c : Thread nD τ).loc main_arg0) := by
  show StableHlo.after hostOps1 (W1 m ρ c) (Proc.devRef .tc main_arg0) = _
  after_results
  exact (W1_arr m ρ c 0).trans (((dat0 (V0 m ρ) c).arrAt_in 0 rfl _).trans (A_eq0 (V0 m ρ) c 0))

theorem arg1_eq (c : Dev nD) : W2 m ρ c (Proc.devRef .tc main_arg1) = m ((c : Thread nD τ).loc main_arg1) := by
  show StableHlo.after hostOps1 (W1 m ρ c) (Proc.devRef .tc main_arg1) = _
  after_results
  exact W1_of_ne m ρ c main_arg1 (by decide)

theorem arg2_eq (c : Dev nD) : W2 m ρ c (Proc.devRef .tc main_arg2) = m ((c : Thread nD τ).loc main_arg2) := by
  show StableHlo.after hostOps1 (W1 m ρ c) (Proc.devRef .tc main_arg2) = _
  after_results
  exact W1_of_ne m ρ c main_arg2 (by decide)

end Cert.Club.KGlue

end
-- ==== Proof.Stats.lean ====
/-
  The first region's two result arrays, read as values over the extended reals.

  The region visits the 16 batches of the features `x` [16, 128, 64, 64] in order. At each batch it adds, into two
  `[1, 128]` buffers that stay in place across the points, the per-channel sums over the 64 × 64 positions of the batch's
  slab and of the slab's square; at the first batch the buffers are first set to zero, and after the last batch they are
  written to the two result arrays. So on channel `d` the first array ends at `Σ_n flat x n d` and the second at
  `Σ_n (flat x n d)²`, the sums over all 65536 positions `n = 4096·b + 64·h + w` (`sum_final`, `sumsq_final`).

  The steps: what one point leaves in the buffers, as a value (`out_A_1` … `out_B_2`); a sum-reduction over the height
  and the width read at a channel as a double sum (`reduce_hw`), hence the stored values at a channel (`pay4_apply`,
  `pay5_apply`); the window's block at point `t` is batch `t` (`iblk_apply`); by induction on the point the buffers hold
  the running totals (`outsAt_eq`); the one write-back at point 15 covers each result array (`final_1`, `final_2`);
  and the sixteen per-batch sums are the sum over all positions (`slab_sum`: 16 blocks of 4096, each 64 × 64). Only
  associativity and commutativity of the addition of extended reals are used.
-/
import proofs.«125531_j8976481649059_1_alg».proof.Proof.Spec
import proofs.«125531_j8976481649059_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Club.Stats

open Cert.KernelIdeal Cert.KernelIdeal.Gen

variable {F : FTy → Type} [FloatOps F]

theorem hz : (![0, 0] : Fin 2 → Nat) = fun _ => 0 := funext fun a => by fin_cases a <;> rfl

theorem hz4 : (![0, 0, 0, 0] : Fin 4 → Nat) = fun _ => 0 := funext fun a => by fin_cases a <;> rfl

/-- At a later point the first output's buffer, holding `xo1`, is left at `xo1` plus the slab's channel sums. -/
theorem out_B_1 (c : Dev nD) (i : grid0.Coords) (a1 : Memref sig .tc .vmem S1x128x64x64 .f32) (h1 : a1.IsWhole)
    (a2 : Memref sig .tc .vmem S1x128 .f32) (h2 : a2.IsWhole) (a3 : Memref sig .tc .vmem S1x128 .f32) (h3 : a3.IsWhole)
    (hc : ¬cond0_0 i) (x : Vec F S1x128x64x64 .f32) (xo1 xo2 : Vec F S1x128 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  rw [View.canon_unit_zero hz]
  simp only [View.readAt_eq_ld, h1.read_unread, h2.read_unread, View.ld_unit_zero (S := S1x128) hz,
    View.ld_unit_zero (S := S1x128x64x64) hz4]

/-- At a later point the second output's buffer, holding `xo2`, is left at `xo2` plus the channel sums of the slab's square. -/
theorem out_B_2 (c : Dev nD) (i : grid0.Coords) (a1 : Memref sig .tc .vmem S1x128x64x64 .f32) (h1 : a1.IsWhole)
    (a2 : Memref sig .tc .vmem S1x128 .f32) (h2 : a2.IsWhole) (a3 : Memref sig .tc .vmem S1x128 .f32) (h3 : a3.IsWhole)
    (hc : ¬cond0_0 i) (x : Vec F S1x128x64x64 .f32) (xo1 xo2 : Vec F S1x128 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  rw [View.canon_unit_zero hz]
  simp only [View.readAt_eq_ld, h1.read_unread, h3.read_unread, View.ld_unit_zero (S := S1x128) hz,
    View.ld_unit_zero (S := S1x128x64x64) hz4]

/-- At the first point the first output's buffer is stored at zero, read back, and left at zero plus the slab's channel sums. -/
theorem out_A_1 (c : Dev nD) (i : grid0.Coords) (a1 : Memref sig .tc .vmem S1x128x64x64 .f32) (h1 : a1.IsWhole)
    (a2 : Memref sig .tc .vmem S1x128 .f32) (h2 : a2.IsWhole) (a3 : Memref sig .tc .vmem S1x128 .f32) (h3 : a3.IsWhole)
    (hc : cond0_0 i) (x : Vec F S1x128x64x64 .f32) :
    out0_A_1 c i a1 h1 a2 h2 a3 h3 hc x = k0_pay4 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x128) hz, View.readCov_unit_zero (S := S1x128) _ hz]
  simp only [View.readAt_eq_ld, h1.read_unread, View.ld_unit_zero (S := S1x128x64x64) hz4]

/-- At the first point the second output's buffer likewise, with the slab's square. -/
theorem out_A_2 (c : Dev nD) (i : grid0.Coords) (a1 : Memref sig .tc .vmem S1x128x64x64 .f32) (h1 : a1.IsWhole)
    (a2 : Memref sig .tc .vmem S1x128 .f32) (h2 : a2.IsWhole) (a3 : Memref sig .tc .vmem S1x128 .f32) (h3 : a3.IsWhole)
    (hc : cond0_0 i) (x : Vec F S1x128x64x64 .f32) :
    out0_A_2 c i a1 h1 a2 h2 a3 h3 hc x = k0_pay5 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x128) hz, View.readCov_unit_zero (S := S1x128) _ hz]
  simp only [View.readAt_eq_ld, h1.read_unread, View.ld_unit_zero (S := S1x128x64x64) hz4]

/-! ## The reduction over height and width, read at a channel -/

/-- Dropping the height and the width of `(d, h, w)` leaves `d`. -/
theorem drop_ix3 (h : S128x64x64.Reduces [1, 2] S128) (a : Fin 128) (b c : Fin 64) : h.drop (ix3 a b c) = ix1 a := by
  funext k
  match k with
  | ⟨0, _⟩ => rfl

/-- The positions of channel `d`, as the pairs (height, width). -/
def slabEmb (d : Fin 128) : Fin 64 × Fin 64 ↪ S128x64x64.Idx :=
  ⟨fun p => ix3 d p.1 p.2, fun p q h => Prod.ext (congrFun h 1) (congrFun h 2)⟩

/-- The indices that drop to channel `d` are exactly those positions. -/
theorem filter_drop (h : S128x64x64.Reduces [1, 2] S128) (d : Fin 128) :
    Finset.univ.filter (fun i : S128x64x64.Idx => h.drop i = ix1 d) = Finset.univ.map (slabEmb d) := by
  ext i
  simp only [Finset.mem_filter, Finset.mem_univ, true_and, Finset.mem_map]
  constructor
  · intro hi
    obtain ⟨a, b, c, rfl⟩ : ∃ a b c, i = ix3 a b c := ⟨_, _, _, eq_ix3 i⟩
    rw [drop_ix3] at hi
    obtain rfl : a = d := congrFun hi 0
    exact ⟨(b, c), rfl⟩
  · rintro ⟨p, rfl⟩
    exact drop_ix3 h d p.1 p.2

/-- A sum-reduction over the height and the width of a `[128, 64, 64]` vector, read at channel `d` over the extended
    reals, is the double sum over the heights and the widths. -/
theorem reduce_hw (src : FVec Ideal S128x64x64 .f32) (h : S128x64x64.Reduces [1, 2] S128) (hφ : FKind.Formats .f32)
    (hacc : (0x00000000#32 : BitVec 32) = FKind.add.neutral .f32 hφ) (d : Fin 128) :
    multiReduction .add [1, 2] S128 src 0x00000000#32 h hφ hacc (ix1 d) = ∑ hh : Fin 64, ∑ ww : Fin 64, src (ix3 d hh ww) := by
  show Ideal.reduceAdd h src (ix1 d) = _
  unfold Ideal.reduceAdd
  rw [filter_drop, Finset.sum_map, Fintype.sum_prod_type]
  rfl

/-- The first accumulation's payload at channel `d`: what the buffer held plus the block's sum over the heights and widths. -/
theorem pay4_apply (x : Vec Ideal S1x128x64x64 .f32) (xo : Vec Ideal S1x128 .f32) (u : Fin 1) (d : Fin 128) :
    k0_pay4 (F := Ideal) x xo (ix2 u d) = xo (ix2 u d) + ∑ hh : Fin 64, ∑ ww : Fin 64, x (ix4 (0 : Fin 1) d hh ww) := by
  unfold k0_pay4 k0_pay3
  dsimp only
  rw [addf_apply, shapeCast_self, shapeCast_a_1a_apply]
  refine congrArg (xo (ix2 u d) + ·) ?_
  refine (reduce_hw _ _ _ _ d).trans ?_
  refine Finset.sum_congr rfl fun hh _ => Finset.sum_congr rfl fun ww _ => ?_
  exact shapeCast_1abc_abc_apply x _ d hh ww

/-- The second accumulation's payload at channel `d`: what the buffer held plus the sum of the block's squares. -/
theorem pay5_apply (x : Vec Ideal S1x128x64x64 .f32) (xo : Vec Ideal S1x128 .f32) (u : Fin 1) (d : Fin 128) :
    k0_pay5 (F := Ideal) x xo (ix2 u d)
      = xo (ix2 u d) + ∑ hh : Fin 64, ∑ ww : Fin 64, x (ix4 (0 : Fin 1) d hh ww) * x (ix4 (0 : Fin 1) d hh ww) := by
  unfold k0_pay5 k0_pay3
  dsimp only
  rw [addf_apply, shapeCast_self, shapeCast_a_1a_apply]
  refine congrArg (xo (ix2 u d) + ·) ?_
  refine (reduce_hw _ _ _ _ d).trans ?_
  refine Finset.sum_congr rfl fun hh _ => Finset.sum_congr rfl fun ww _ => ?_
  rw [mulf_apply]
  rw [shapeCast_1abc_abc_apply x _ d hh ww]

/-- The zero block the first point stores, at an index. -/
theorem pay1_apply (j : S1x128.Idx) : k0_pay1 (F := Ideal) j = 0 := Ideal.ofBits_zero_f32
theorem pay2_apply (j : S1x128.Idx) : k0_pay2 (F := Ideal) j = 0 := Ideal.ofBits_zero_f32

/-! ## The window's block -/

section Block
variable (V : (c : Dev nD) → (b : Ref sig .tc) → Buf (Elt F) ((c : Thread nD τ).loc b))

/-- The features' block at point `t` is batch `t` of the features: position `(0, d, h, w)` of the block is position
    `(t, d, h, w)` of the array. -/
theorem iblk_apply (c : Dev nD) (t : Fin cfg0.N) (d : Fin 128) (hh ww : Fin 64) :
    (iblk0 V c 0 t : Vec F S1x128x64x64 .f32) (ix4 (0 : Fin 1) d hh ww)
      = V c main_arg0 (ix4 (⟨t.val, lt_of_lt_of_eq t.isLt N_0⟩ : Fin 16) d hh ww) := by
  have hi : win0_0.index t 0 = t.val ∧ win0_0.index t 1 = 0 ∧ win0_0.index t 2 = 0 ∧ win0_0.index t 3 = 0 :=
    (by decide +kernel : ∀ t : Fin grid0.N, win0_0.index t 0 = t.val ∧ win0_0.index t 1 = 0 ∧ win0_0.index t 2 = 0 ∧ win0_0.index t 3 = 0) t
  unfold iblk0
  rw [View.read_apply]
  show V c main_arg0 (((cfg0.win 0).blk t).view.emb (ix4 (0 : Fin 1) d hh ww)) = _
  refine congrArg (V c main_arg0) ?_
  funext a
  apply Fin.ext
  match a with
  | ⟨0, _⟩ => show win0_0.index t 0 * 1 + 1 * (0 : ℕ) = t.val; rw [hi.1]; omega
  | ⟨1, _⟩ => show win0_0.index t 1 * 128 + 1 * d.val = d.val; rw [hi.2.1]; omega
  | ⟨2, _⟩ => show win0_0.index t 2 * 64 + 1 * hh.val = hh.val; rw [hi.2.2.1]; omega
  | ⟨3, _⟩ => show win0_0.index t 3 * 64 + 1 * ww.val = ww.val; rw [hi.2.2.2]; omega

end Block

/-! ## The per-batch sums and their total -/

/-- The sum over the heights and widths of `φ` of the features of batch `k` (taken modulo 16, so that every `k` names a
    batch) on channel `d`; `φ` is the identity for the first output and the square for the second. -/
def slab (φ : EReal → EReal) (X : XS.Idx → EReal) (k : ℕ) (d : Fin 128) : EReal :=
  ∑ hh : Fin 64, ∑ ww : Fin 64, φ (X (ix4 (⟨k % 16, Nat.mod_lt _ (by decide)⟩ : Fin 16) d hh ww))

/-- The sixteen batches' sums together are the sum over all 65536 positions: the positions in 16 consecutive blocks of
    4096, each block's positions as 64 × 64. -/
theorem slab_sum (φ : EReal → EReal) (X : XS.Idx → EReal) (d : Fin 128) :
    ∑ k ∈ Finset.range 16, slab φ X k d = ∑ n : Fin 65536, φ (flat X n d) := by
  rw [sum_rows (fun n => φ (flat X n d))]
  refine Finset.sum_congr rfl fun b hb => ?_
  have hb' : b < 16 := Finset.mem_range.mp hb
  unfold BlockedSum.blockSum slab
  refine ((sum_positions (fun h w => φ (X (ix4 (⟨b % 16, Nat.mod_lt _ (by decide)⟩ : Fin 16) d h w)))).symm).trans ?_
  refine Finset.sum_congr rfl fun q _ => ?_
  have e := blk_pos ⟨b, hb'⟩ q
  dsimp only at e
  unfold flat
  refine congrArg (fun i => φ (X i)) ?_
  have hB := e.1.trans (Fin.ext (Nat.mod_eq_of_lt hb').symm : (⟨b, hb'⟩ : Fin 16) = ⟨b % 16, Nat.mod_lt _ (by decide)⟩)
  have hH : posH _ = (⟨q.val / 64, by have := q.isLt; omega⟩ : Fin 64) := Fin.ext e.2.1
  have hW : posW _ = (⟨q.val % 64, Nat.mod_lt _ (by decide)⟩ : Fin 64) := Fin.ext e.2.2
  rw [hB, hH, hW]

/-- The running total after point `n`, as a `[1, 128]` block: on channel `d` the sum of the batches `0 … n`. -/
def acc (φ : EReal → EReal) (X : XS.Idx → EReal) (n : ℕ) : Vec Ideal S1x128 .f32 :=
  fun j => ∑ k ∈ Finset.range (n + 1), slab φ X k ⟨(j 1).val, (j 1).isLt⟩

theorem acc_apply (φ : EReal → EReal) (X : XS.Idx → EReal) (n : ℕ) (u : Fin 1) (d : Fin 128) :
    acc φ X n (ix2 u d) = ∑ k ∈ Finset.range (n + 1), slab φ X k d := rfl

/-! ## The accumulation over the sixteen points -/

section Region
variable (V : (c : Dev nD) → (b : Ref sig .tc) → Buf (Elt Ideal) ((c : Thread nD τ).loc b))

/-- The features as the region finds them. -/
abbrev feat (c : Dev nD) : XS.Idx → EReal := V c main_arg0

/-- The block at point `t`, summed over the heights and widths through `φ`, is batch `t`'s sum. -/
theorem iblk_slab (φ : EReal → EReal) (c : Dev nD) (t : Fin cfg0.N) (d : Fin 128) :
    ∑ hh : Fin 64, ∑ ww : Fin 64, φ ((iblk0 V c 0 t : Vec Ideal S1x128x64x64 .f32) (ix4 (0 : Fin 1) d hh ww))
      = slab φ (feat V c) t.val d := by
  unfold slab
  refine Finset.sum_congr rfl fun hh _ => Finset.sum_congr rfl fun ww _ => ?_
  rw [iblk_apply]
  have ht : (⟨t.val, lt_of_lt_of_eq t.isLt N_0⟩ : Fin 16) = ⟨t.val % 16, Nat.mod_lt _ (by decide)⟩ :=
    Fin.ext (Nat.mod_eq_of_lt (lt_of_lt_of_eq t.isLt N_0)).symm
  rw [ht]

/-- After point `n` the two buffers hold the running totals of the features and of their squares. -/
theorem outsAt_eq (c : Dev nD) : ∀ (n : ℕ) (h : n < cfg0.N),
    outsAt0 V c n h = (acc (fun v => v) (feat V c) n, acc (fun v => v * v) (feat V c) n)
  | 0, h => by
    refine (outsAt0_A V c ⟨0, h⟩ rfl).trans ?_
    rw [out_A_1, out_A_2]
    refine Prod.ext (funext fun j => ?_) (funext fun j => ?_)
    · obtain ⟨u, d, rfl⟩ : ∃ u d, j = ix2 u d := ⟨_, _, eq_ix2 j⟩
      show k0_pay4 (F := Ideal) _ _ (ix2 u d) = acc _ _ 0 (ix2 u d)
      rw [pay4_apply, pay1_apply, zero_add, acc_apply, Finset.sum_range_one]
      exact iblk_slab V (fun v => v) c ⟨0, h⟩ d
    · obtain ⟨u, d, rfl⟩ : ∃ u d, j = ix2 u d := ⟨_, _, eq_ix2 j⟩
      show k0_pay5 (F := Ideal) _ _ (ix2 u d) = acc _ _ 0 (ix2 u d)
      rw [pay5_apply, pay2_apply, zero_add, acc_apply, Finset.sum_range_one]
      exact iblk_slab V (fun v => v * v) c ⟨0, h⟩ d
  | n + 1, h => by
    have hN : cfg0.N = 16 := N_0
    have hB : ¬(⟨n + 1, h⟩ : Fin cfg0.N).val % 16 = 0 := by dsimp only; omega
    refine (outsAt0_B V c ⟨n + 1, h⟩ hB).trans ?_
    rw [out_B_1, out_B_2]
    have ih := outsAt_eq c n (Nat.lt_of_succ_lt h)
    refine Prod.ext (funext fun j => ?_) (funext fun j => ?_)
    · obtain ⟨u, d, rfl⟩ : ∃ u d, j = ix2 u d := ⟨_, _, eq_ix2 j⟩
      show k0_pay4 (F := Ideal) _ (outsAt0 V c n _).1 (ix2 u d) = acc _ _ (n + 1) (ix2 u d)
      rw [pay4_apply, ih]
      show (∑ k ∈ Finset.range (n + 1), slab _ _ k d) + _ = ∑ k ∈ Finset.range (n + 1 + 1), slab _ _ k d
      rw [Finset.sum_range_succ _ (n + 1)]
      exact congrArg (_ + ·) (iblk_slab V (fun v => v) c ⟨n + 1, h⟩ d)
    · obtain ⟨u, d, rfl⟩ : ∃ u d, j = ix2 u d := ⟨_, _, eq_ix2 j⟩
      show k0_pay5 (F := Ideal) _ (outsAt0 V c n _).2 (ix2 u d) = acc _ _ (n + 1) (ix2 u d)
      rw [pay5_apply, ih]
      show (∑ k ∈ Finset.range (n + 1), slab _ _ k d) + _ = ∑ k ∈ Finset.range (n + 1 + 1), slab _ _ k d
      rw [Finset.sum_range_succ _ (n + 1)]
      exact congrArg (_ + ·) (iblk_slab V (fun v => v * v) c ⟨n + 1, h⟩ d)

end Region

/-! ## The result arrays -/

section Result
variable (V : (c : Dev nD) → (b : Ref sig .tc) → Buf (Elt Ideal) ((c : Thread nD τ).loc b))

/-- The totals after the last point, as contents of the two result arrays (each array is its one block). -/
abbrev result1 (c : Dev nD) : Buf (Elt Ideal) ((c : Thread nD τ).loc main_v0_0) := acc (fun v => v) (feat V c) 15
abbrev result2 (c : Dev nD) : Buf (Elt Ideal) ((c : Thread nD τ).loc main_v0_1) := acc (fun v => v * v) (feat V c) 15

/-- The one write-back of the first output, at point 15, writes the total: block (0, 0) of the `[1, 128]` array read
    through zero offsets is the array. -/
theorem flushed_eq_1 (c : Dev nD) (t : Fin cfg0.N) (hf : (cfg0.win 1).flush t = true) :
    (dat0 V c).flushed 1 t = ((cfg0.win 1).blk t).view.read (Elt Ideal) (result1 V c) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [after0_1, outsAt_eq]
  have hz' : (fun a => win0_1.index t0_15 a * main_v0_0.ty.shape.size a) = fun _ => 0 := funext fun a => by fin_cases a <;> decide
  exact (Memref.read_access_unit_zero (Elt Ideal) main_v0_0 hz' (fun a => by rw [congrFun hz' a]; simp) (result1 V c)).symm

theorem flushed_eq_2 (c : Dev nD) (t : Fin cfg0.N) (hf : (cfg0.win 2).flush t = true) :
    (dat0 V c).flushed 2 t = ((cfg0.win 2).blk t).view.read (Elt Ideal) (result2 V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, outsAt_eq]
  have hz' : (fun a => win0_2.index t0_15 a * main_v0_1.ty.shape.size a) = fun _ => 0 := funext fun a => by fin_cases a <;> decide
  exact (Memref.read_access_unit_zero (Elt Ideal) main_v0_1 hz' (fun a => by rw [congrFun hz' a]; simp) (result2 V c)).symm

/-- So the first result array ends holding the total (point 15's block covers it). -/
theorem final_1 (c : Dev nD) : (dat0 V c).arrAt 1 cfg0.N = result1 V c :=
  (dat0 V c).arrAt_eq_of_cover 1 (result1 V c) (flushed_eq_1 V c) fun i =>
    ⟨t0_15, (flush0_1 t0_15).mpr rfl, by
      show i ∈ ((View.whole main_v0_0).slice (win0_1.rect t0_15)).set
      rw [View.set_slice_whole, Rect.mem_set_unit]
      intro a
      have h0 : (i 0 : Nat) < 1 := (i 0).isLt
      have h1 : (i 1 : Nat) < 128 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 128 from by decide +kernel]; omega⟩

theorem final_2 (c : Dev nD) : (dat0 V c).arrAt 2 cfg0.N = result2 V c :=
  (dat0 V c).arrAt_eq_of_cover 2 (result2 V c) (flushed_eq_2 V c) fun i =>
    ⟨t0_15, (flush0_2 t0_15).mpr rfl, by
      show i ∈ ((View.whole main_v0_1).slice (win0_2.rect t0_15)).set
      rw [View.set_slice_whole, Rect.mem_set_unit]
      intro a
      have h0 : (i 0 : Nat) < 1 := (i 0).isLt
      have h1 : (i 1 : Nat) < 128 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 128 from by decide +kernel]; omega⟩

/-- The first result array, on channel `d`, is the sum of the features over all 65536 positions. -/
theorem sum_final (c : Dev nD) (d : Fin 128) :
    (dat0 (F := Ideal) V c).arrAt 1 cfg0.N (ix2 (0 : Fin 1) d) = ∑ n : Fin 65536, flat (V c main_arg0) n d := by
  rw [final_1]
  exact slab_sum (fun v => v) (feat V c) d

/-- The second result array, on channel `d`, is the sum of the features' squares over all 65536 positions. -/
theorem sumsq_final (c : Dev nD) (d : Fin 128) :
    (dat0 (F := Ideal) V c).arrAt 2 cfg0.N (ix2 (0 : Fin 1) d)
      = ∑ n : Fin 65536, flat (V c main_arg0) n d * flat (V c main_arg0) n d := by
  rw [final_2]
  exact slab_sum (fun v => v * v) (feat V c) d

end Result

end Cert.Club.Stats

end
-- ==== Proof.LossBody.lean ====
/-
  What one grid point of the second kernel leaves in its one-entry output block.

  The body reads the point's blocks of the features, the means, the log-variances and the two [1,128] rows of
  statistics, computes from them the block's partial total (the payload `k1_pay3`), and adds it to the output block's
  entry (the payload `k1_pay1`).  At the first point the entry is first overwritten with zero, so the point leaves the
  partial total added to the zero block; at every later point it leaves the partial total added to what the point
  before left.
-/
import proofs.«125531_j8976481649059_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Club.KLoss

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A later point: the partial total of the point's blocks added to the entry `xo` the point before left. -/
theorem out_B (c : Dev nD) (i : grid1.Coords) (a1 : Memref sig .tc .vmem S1x128x64x64 .f32) (h1 : a1.IsWhole)
    (a2 : Memref sig .tc .vmem S4096x128 .f32) (h2 : a2.IsWhole) (a3 : Memref sig .tc .vmem S4096x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x1 .f32) (h6 : a6.IsWhole) (hc : ¬cond1_0 i)
    (x0 : Vec F S1x128x64x64 .f32) (x1 x2 : Vec F S4096x128 .f32) (x3 x4 : Vec F S1x128 .f32) (xo : Vec F S1x1 .f32) :
    out1_B_5 c i a1 h1 a2 h2 a3 h3 a4 h4 a5 h5 a6 h6 hc x0 x1 x2 x3 x4 xo = k1_pay1 (k1_pay3 x0 x1 x2 x3 x4) xo := by
  unfold out1_B_5
  rw [View.read_writes_eq_canon _ _ _ (cover1_B_5 c i a1 h1 a2 h2 a3 h3 a4 h4 a5 h5 a6 h6 hc x0 x1 x2 x3 x4 xo)]
  unfold kernelRun1_B
  dsimp only
  sl_unfold_words
  rw [View.canon_unit_zero hz2]
  simp only [View.readAt_eq_ld, h1.read_unread, h2.read_unread, h3.read_unread, h4.read_unread, h5.read_unread, h6.read_unread,
    View.ld_unit_zero (S := S1x128x64x64) hz4, View.ld_unit_zero (S := S4096x128) hz2, View.ld_unit_zero (S := S1x128) hz2,
    View.ld_unit_zero (S := S1x1) hz2]

/-- The first point: the partial total of the point's blocks added to the zero block. -/
theorem out_A (c : Dev nD) (i : grid1.Coords) (a1 : Memref sig .tc .vmem S1x128x64x64 .f32) (h1 : a1.IsWhole)
    (a2 : Memref sig .tc .vmem S4096x128 .f32) (h2 : a2.IsWhole) (a3 : Memref sig .tc .vmem S4096x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x1 .f32) (h6 : a6.IsWhole) (hc : cond1_0 i)
    (x0 : Vec F S1x128x64x64 .f32) (x1 x2 : Vec F S4096x128 .f32) (x3 x4 : Vec F S1x128 .f32) :
    out1_A_5 c i a1 h1 a2 h2 a3 h3 a4 h4 a5 h5 a6 h6 hc x0 x1 x2 x3 x4 = k1_pay1 (k1_pay3 x0 x1 x2 x3 x4) (k1_pay2 (F := F)) := by
  unfold out1_A_5
  rw [View.read_writes_eq_canon _ _ _ (cover1_A_5 c i a1 h1 a2 h2 a3 h3 a4 h4 a5 h5 a6 h6 hc x0 x1 x2 x3 x4)]
  unfold kernelRun1_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread,
    View.ld_unit_zero (S := S1x128x64x64) hz4, View.ld_unit_zero (S := S4096x128) hz2, View.ld_unit_zero (S := S1x128) hz2]

end Cert.Club.KLoss

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LossPayload.lean ====
/-
  The second kernel's arithmetic at one grid point, read entry by entry over the extended reals.

  From the point's blocks — the features `x0` [1,128,64,64], the means `x1` and the log-variances `x2` [4096,128],
  the two rows of statistics `x3`, `x4` [1,128] — the body lays the features out one row per position (row
  `r = 64·h + w` of the block holds `x0 (0, d, h, w)` on channel `d`), forms for every row the two weighted sums over
  the channels, multiplies each by -1/2, subtracts, and adds the 4096 differences: `blockTotal`.  It then adds that
  total to the output block's entry.
-/
import proofs.«125531_j8976481649059_1_alg».proof.Proof.Gen.KernelIdeal.Skeleton
import proofs.«125531_j8976481649059_1_alg».proof.Proof.Spec
import proofs.«125531_j8976481649059_1_alg».proof.Proof.LibRowForms
import Idealize.ShloMosaic.Lib.Pipeline.Value
import Idealize.ShloMosaic.Lib.ValueLayout
import Idealize.ShloMosaic.PureOps.Ideal.Laws

noncomputable section

open Idealize.ShloMosaic Idealize.ShloMosaic.ValueIdx

namespace Cert.Club.KLoss

open Cert.KernelIdeal Cert.KernelIdeal.Gen

theorem hw_lt (r : Fin 4096) : r.val / 64 < 64 ∧ r.val % 64 < 64 := by have := r.isLt; omega

/-- Row `r` of a block is the position of height `r / 64` and width `r % 64`. -/
def rowH (r : Fin 4096) : Fin 64 := ⟨r.val / 64, (hw_lt r).1⟩
def rowW (r : Fin 4096) : Fin 64 := ⟨r.val % 64, (hw_lt r).2⟩

/-- The partial total of one block of 4096 rows. -/
def blockTotal (x0 : FVec Ideal S1x128x64x64 .f32) (x1 x2 : FVec Ideal S4096x128 .f32) (x3 x4 : FVec Ideal S1x128 .f32) : EReal :=
  ∑ r : Fin 4096,
    (cHalf * (∑ d : Fin 128, (x0 (ix4 (0 : Fin 1) d (rowH r) (rowW r)) - x1 (ix2 r d)) * (x0 (ix4 (0 : Fin 1) d (rowH r) (rowW r)) - x1 (ix2 r d))
        * Ideal.exp (-(x2 (ix2 r d))))
      - cHalf * (∑ d : Fin 128, Ideal.exp (-(x2 (ix2 r d)))
        * (x4 (ix2 (0 : Fin 1) d) - cTwo * x1 (ix2 r d) * x3 (ix2 (0 : Fin 1) d) + x1 (ix2 r d) * x1 (ix2 r d))))

/-- The features' block laid out one row per position, at row `r` and channel `d`. -/
theorem rows_apply (x0 : FVec Ideal S1x128x64x64 .f32) (r : Fin 4096) (d : Fin 128) :
    shapeCast S4096x128 (transpose S64x64x128 [1, 2, 0] (shapeCast S128x64x64 x0 Facts₀.shapeCasts_S1x128x64x64_S128x64x64)
        Facts₀.transposes_S128x64x64_p1_2_0_S64x64x128) Facts₀.shapeCasts_S64x64x128_S4096x128 (ix2 r d)
      = x0 (ix4 (0 : Fin 1) d (rowH r) (rowW r)) := by
  refine (shapeCast_apply _ Facts₀.shapeCasts_S64x64x128_S4096x128 (ix2 r d) (ix3 (rowH r) (rowW r) d) ?_).trans ?_
  · rw [Shape.rowMajor_val_three, Shape.rowMajor_val_two]
    have := r.isLt
    show (r.val / 64 * 64 + r.val % 64) * 128 + d.val = r.val * 128 + d.val
    omega
  refine (transpose_apply [1, 2, 0] _ Facts₀.transposes_S128x64x64_p1_2_0_S64x64x128 (ix3 (rowH r) (rowW r) d) (ix3 d (rowH r) (rowW r))
    (fun b => match b with | ⟨0, _⟩ => rfl | ⟨1, _⟩ => rfl | ⟨2, _⟩ => rfl)).trans ?_
  exact shapeCast_1abc_abc_apply x0 Facts₀.shapeCasts_S1x128x64x64_S128x64x64 d (rowH r) (rowW r)

theorem exp_apply {s : Shape} (a : FVec Ideal s .f32) (i : s.Idx) : exp a i = Ideal.exp (a i) := rfl

/-- Subtracting from the zero word is negating. -/
theorem zero_word_sub (a : EReal) : Ideal.ofBits .f32 0x00000000#32 - a = -a := by
  rw [Ideal.ofBits_zero_f32, zero_sub]

/-- A [1,128] row, cast to its own shape and copied down the 4096 rows, at row `r` and channel `d`. -/
theorem stat_apply (v : FVec Ideal S1x128 .f32) (r : Fin 4096) (d : Fin 128) :
    broadcastTo S4096x128 (shapeCast S1x128 v Facts₀.shapeCasts_S1x128_S1x128) Facts₀.broadcasts_S1x128_S4096x128 (ix2 r d)
      = v (ix2 (0 : Fin 1) d) := by
  rw [shapeCast_self]
  exact broadcastTo_1b_ab_apply v Facts₀.broadcasts_S1x128_S4096x128 r d

/-- The body's arithmetic: the one entry of its result is the block's partial total. -/
theorem pay3_apply (x0 : FVec Ideal S1x128x64x64 .f32) (x1 x2 : FVec Ideal S4096x128 .f32) (x3 x4 : FVec Ideal S1x128 .f32) :
    k1_pay3 (F := Ideal) x0 x1 x2 x3 x4 (ix1 (0 : Fin 1)) = blockTotal x0 x1 x2 x3 x4 := by
  unfold k1_pay3
  dsimp only
  refine (Cert.RowForms.multiReduction_add_rows _ Facts₀.reduces_S1x4096_S1 (0 : Fin 1)).trans ?_
  unfold blockTotal
  refine Finset.sum_congr rfl fun r _ => ?_
  refine (shapeCast_a_1a_apply _ Facts₀.shapeCasts_S4096_S1x4096 (0 : Fin 1) r).trans ?_
  simp only [subf_apply, mulf_apply, broadcast_apply, Ideal.ofBits_def]
  refine congrArg₂ (fun a b => cHalf * a - cHalf * b) ?_ ?_
  · refine (Cert.RowForms.multiReduction_add_rows _ _ r).trans (Finset.sum_congr rfl fun d _ => ?_)
    simp only [subf_apply, mulf_apply, broadcast_apply, exp_apply, Ideal.ofBits_def, zero_word_sub]
    exact congrArg (fun a => (a - x1 (ix2 r d)) * (a - x1 (ix2 r d)) * Ideal.exp (-x2 (ix2 r d))) (rows_apply x0 r d)
  · refine (Cert.RowForms.multiReduction_add_rows _ _ r).trans (Finset.sum_congr rfl fun d _ => ?_)
    simp only [subf_apply, mulf_apply, addf_apply, broadcast_apply, exp_apply, Ideal.ofBits_def, zero_word_sub]
    exact congrArg₂ (fun a b => Ideal.exp (-x2 (ix2 r d)) * (a - cTwo * x1 (ix2 r d) * b + x1 (ix2 r d) * x1 (ix2 r d)))
      (stat_apply x4 r d) (stat_apply x3 r d)

/-- Adding the total to the output block's entry. -/
theorem pay1_apply (v : FVec Ideal S1 .f32) (xo : Vec Ideal S1x1 .f32) :
    k1_pay1 (F := Ideal) v xo (ix2 (0 : Fin 1) (0 : Fin 1)) = xo (ix2 (0 : Fin 1) (0 : Fin 1)) + v (ix1 (0 : Fin 1)) := by
  unfold k1_pay1
  rw [shapeCast_self]
  refine congrArg (xo (ix2 (0 : Fin 1) (0 : Fin 1)) + ·) ?_
  show shapeCast S1x1 v Facts₀.shapeCasts_S1_S1x1 (fun a => ⟨(![0, 0] : Fin 2 → Nat) a, Facts₀.inpos_S1x1_p0_0 a⟩) = v (ix1 (0 : Fin 1))
  refine shapeCast_apply v Facts₀.shapeCasts_S1_S1x1 _ (ix1 (0 : Fin 1)) ?_
  rw [Shape.rowMajor_val_two, Shape.rowMajor_val_one]
  rfl

end Cert.Club.KLoss

end
-- ==== Proof.LossBlock.lean ====
/-
  A block's partial total is a block of the rows' contributions.

  `rowTermP` is a row's contribution with the two per-channel statistics as parameters `e1`, `e2` (the result's
  `rowTerm` is the case where they are the two means).  If the blocks a grid point reads are batch `b`'s slab of the
  features, rows `4096·b … 4096·b + 4095` of the means and of the log-variances, and the two rows of statistics, then
  the point's partial total is the sum of `rowTermP` over those 4096 rows: row `r` of the block is position
  `4096·b + r`, of batch `b`, height `r / 64` and width `r % 64`.
-/
import proofs.«125531_j8976481649059_1_alg».proof.Proof.LossPayload

noncomputable section

open Idealize.ShloMosaic Idealize.ShloMosaic.ValueIdx

namespace Cert.Club

variable (x : XS.Idx → EReal) (mu lv : RS.Idx → EReal) (e1 e2 : Fin 128 → EReal)

/-- Row `n`'s second weighted sum, the two statistics given. -/
def negSumP (n : Fin 65536) : EReal :=
  ∑ d : Fin 128, wt lv n d * (e2 d - cTwo * mu (ix2 n d) * e1 d + mu (ix2 n d) * mu (ix2 n d))

/-- Row `n`'s contribution, the two statistics given. -/
def rowTermP (n : Fin 65536) : EReal := cHalf * posSum x mu lv n - cHalf * negSumP mu lv e1 e2 n

theorem rowTerm_eq (n : Fin 65536) : rowTerm x mu lv n = rowTermP x mu lv (m1 x) (m2 x) n := rfl

namespace KLoss

open Cert.KernelIdeal

theorem blockTotal_eq (x0 : FVec Ideal S1x128x64x64 .f32) (x1 x2 : FVec Ideal S4096x128 .f32) (x3 x4 : FVec Ideal S1x128 .f32)
    (X : XS.Idx → EReal) (MU LV : RS.Idx → EReal) (e1 e2 : Fin 128 → EReal) (b : Fin 16)
    (h0 : ∀ (d : Fin 128) (h w : Fin 64), x0 (ix4 (0 : Fin 1) d h w) = X (ix4 b d h w))
    (h1 : ∀ (r : Fin 4096) (d : Fin 128), x1 (ix2 r d) = MU (ix2 (BlockedSum.blkIdx (n := 65536) (by decide) 4096 b.val r) d))
    (h2 : ∀ (r : Fin 4096) (d : Fin 128), x2 (ix2 r d) = LV (ix2 (BlockedSum.blkIdx (n := 65536) (by decide) 4096 b.val r) d))
    (h3 : ∀ d : Fin 128, x3 (ix2 (0 : Fin 1) d) = e1 d) (h4 : ∀ d : Fin 128, x4 (ix2 (0 : Fin 1) d) = e2 d) :
    blockTotal x0 x1 x2 x3 x4 = BlockedSum.blockSum (n := 65536) (by decide) 4096 (rowTermP X MU LV e1 e2) b.val := by
  unfold blockTotal BlockedSum.blockSum
  refine Finset.sum_congr rfl fun r _ => ?_
  have hp := blk_pos b r
  have hH : posH (BlockedSum.blkIdx (n := 65536) (by decide) 4096 b.val r) = rowH r := Fin.ext hp.2.1
  have hW : posW (BlockedSum.blkIdx (n := 65536) (by decide) 4096 b.val r) = rowW r := Fin.ext hp.2.2
  unfold rowTermP posSum negSumP wt flat
  rw [hp.1, hH, hW]
  simp only [h0, h1, h2, h3, h4]

end KLoss

end Cert.Club

end
-- ==== Proof.LossValue.lean ====
/-
  The second kernel's output array after its sixteen grid points.

  The kernel's one-entry output block is never moved and is written back after the last point only; what it holds
  after point `n` is the sum of the partial totals of points `0 … n` (the first point starts from the zero word, every
  later one adds to what the point before left).  Point `t` reads batch `t`'s slab of the features, rows
  `4096·t … 4096·t + 4095` of the means and the log-variances, and the two [1,128] rows of statistics, so its partial
  total is the sum of the rows' contributions over block `t` of the 65536 rows; the sixteen blocks together are all
  rows.  Everything is stated at the buffer contents `V` the kernel is entered with.
-/
import proofs.«125531_j8976481649059_1_alg».proof.Proof.LossBody
import proofs.«125531_j8976481649059_1_alg».proof.Proof.LossBlock

noncomputable section

open Idealize.ShloMosaic Idealize.ShloMosaic.TcCoe Idealize.SL.Sem Idealize.ShloMosaic.ValueIdx
open Idealize.ShloMosaic.Pipeline (Dat)

namespace Cert.Club.KLoss

open Cert.KernelIdeal Cert.KernelIdeal.Gen

variable (V : (c : Dev nD) → (b : Ref sig .tc) → Buf (Elt Ideal) ((c : Thread nD τ).loc b))

/-- The partial total of grid point `t`: of the blocks the point reads. -/
def pointTotal (c : Dev nD) (t : Fin cfg1.N) : EReal :=
  blockTotal (iblk1 V c 0 t) (iblk1 V c 1 t) (iblk1 V c 2 t) (iblk1 V c 3 t) (iblk1 V c 4 t)

/-- The same for every natural number (zero past the grid). -/
def pointTotalN (c : Dev nD) (k : ℕ) : EReal := if h : k < cfg1.N then pointTotal V c ⟨k, h⟩ else 0

theorem pointTotalN_of_lt (c : Dev nD) (k : ℕ) (h : k < cfg1.N) : pointTotalN V c k = pointTotal V c ⟨k, h⟩ := dif_pos h

/-- What the output block holds after point `n`: the partial totals of the points so far. -/
theorem outsAt_eq (c : Dev nD) : ∀ (n : ℕ) (h : n < cfg1.N),
    outsAt1 V c n h (ix2 (0 : Fin 1) (0 : Fin 1)) = ∑ k ∈ Finset.range (n + 1), pointTotalN V c k
  | 0, h => by
    rw [outsAt1_A V c ⟨0, h⟩ rfl]
    rw [out_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
      (ms1_3 ⟨0, h⟩) (hs1_3 ⟨0, h⟩) (ms1_4 ⟨0, h⟩) (hs1_4 ⟨0, h⟩) (ms1_5 ⟨0, h⟩) (hs1_5 ⟨0, h⟩) ((hcond1_0 ⟨0, h⟩).mpr rfl)
      (iblk1 V c 0 ⟨0, h⟩) (iblk1 V c 1 ⟨0, h⟩) (iblk1 V c 2 ⟨0, h⟩) (iblk1 V c 3 ⟨0, h⟩) (iblk1 V c 4 ⟨0, h⟩)]
    rw [pay1_apply, pay3_apply, Finset.sum_range_one, pointTotalN_of_lt V c 0 h]
    show Ideal.ofBits .f32 0x00000000#32 + _ = _
    rw [Ideal.ofBits_zero_f32, zero_add]
    rfl
  | n + 1, h => by
    have hN : cfg1.N = 16 := N_1
    have hB : ¬(⟨n + 1, h⟩ : Fin cfg1.N).val % 16 = 0 := by dsimp only; omega
    rw [outsAt1_B V c ⟨n + 1, h⟩ hB]
    rw [out_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩)
      (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩)
      (fun hh => hB ((hcond1_0 ⟨n + 1, h⟩).mp hh))
      (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)]
    rw [pay1_apply, pay3_apply, Finset.sum_range_succ _ (n + 1), pointTotalN_of_lt V c (n + 1) h]
    show outsAt1 V c n _ (ix2 (0 : Fin 1) (0 : Fin 1)) + _ = _
    rw [outsAt_eq c n (Nat.lt_of_succ_lt h)]
    rfl

end Cert.Club.KLoss

end
-- ==== Proof.LossFinal.lean ====
/-
  The second kernel's result array, and the rows it sums.

  The output block is written back once, after the last grid point, and is the whole [1,1] result array: the array
  ends holding what the block held after point 15, the sum of the sixteen points' partial totals.  Point `t` reads
  batch `t` of the features, rows `4096·t + r` of the means and the log-variances and the two rows of statistics as
  they stood when the kernel was entered, so its partial total is block `t` of the rows' contributions; the sixteen
  blocks are all 65536 rows.
-/
import proofs.«125531_j8976481649059_1_alg».proof.Proof.LossValue

noncomputable section

open Idealize.ShloMosaic Idealize.ShloMosaic.TcCoe Idealize.SL.Sem Idealize.ShloMosaic.ValueIdx
open Idealize.ShloMosaic.Pipeline (Dat)

namespace Cert.Club.KLoss

open Cert.KernelIdeal Cert.KernelIdeal.Gen

variable (V : (c : Dev nD) → (b : Ref sig .tc) → Buf (Elt Ideal) ((c : Thread nD τ).loc b))

/-! ## The blocks a point reads -/

theorem tlt (t : Fin cfg1.N) : t.val < 16 := lt_of_lt_of_eq t.isLt N_1

theorem idx_x : ∀ t : Fin cfg1.N, win1_0.index t 0 = t.val ∧ win1_0.index t 1 = 0 ∧ win1_0.index t 2 = 0 ∧ win1_0.index t 3 = 0 :=
  (by decide +kernel : ∀ t : Fin grid1.N, win1_0.index t 0 = t.val ∧ win1_0.index t 1 = 0 ∧ win1_0.index t 2 = 0 ∧ win1_0.index t 3 = 0)
theorem idx_mu : ∀ t : Fin cfg1.N, win1_1.index t 0 = t.val ∧ win1_1.index t 1 = 0 :=
  (by decide +kernel : ∀ t : Fin grid1.N, win1_1.index t 0 = t.val ∧ win1_1.index t 1 = 0)
theorem idx_lv : ∀ t : Fin cfg1.N, win1_2.index t 0 = t.val ∧ win1_2.index t 1 = 0 :=
  (by decide +kernel : ∀ t : Fin grid1.N, win1_2.index t 0 = t.val ∧ win1_2.index t 1 = 0)
theorem idx_e1 : ∀ t : Fin cfg1.N, win1_3.index t 0 = 0 ∧ win1_3.index t 1 = 0 :=
  (by decide +kernel : ∀ t : Fin grid1.N, win1_3.index t 0 = 0 ∧ win1_3.index t 1 = 0)
theorem idx_e2 : ∀ t : Fin cfg1.N, win1_4.index t 0 = 0 ∧ win1_4.index t 1 = 0 :=
  (by decide +kernel : ∀ t : Fin grid1.N, win1_4.index t 0 = 0 ∧ win1_4.index t 1 = 0)

/-- The features' block at point `t` is batch `t`. -/
theorem read_x (c : Dev nD) (t : Fin cfg1.N) (d : Fin 128) (h w : Fin 64) :
    iblk1 V c 0 t (ix4 (0 : Fin 1) d h w) = V c main_arg0 (ix4 (⟨t.val, tlt t⟩ : Fin 16) d h w) := by
  unfold iblk1
  rw [View.read_apply]
  show V c main_arg0 _ = V c main_arg0 _
  refine congrArg (V c main_arg0) (funext fun a => Fin.ext ?_)
  have hi := idx_x t
  match a with
  | ⟨0, _⟩ => show win1_0.index t 0 * 1 + 1 * 0 = t.val; rw [hi.1]; omega
  | ⟨1, _⟩ => show win1_0.index t 1 * 128 + 1 * d.val = d.val; rw [hi.2.1]; omega
  | ⟨2, _⟩ => show win1_0.index t 2 * 64 + 1 * h.val = h.val; rw [hi.2.2.1]; omega
  | ⟨3, _⟩ => show win1_0.index t 3 * 64 + 1 * w.val = w.val; rw [hi.2.2.2]; omega

/-- The means' block at point `t` is rows `4096·t + r`. -/
theorem read_mu (c : Dev nD) (t : Fin cfg1.N) (r : Fin 4096) (d : Fin 128) :
    iblk1 V c 1 t (ix2 r d) = V c main_arg1 (ix2 (BlockedSum.blkIdx (n := 65536) (by decide) 4096 t.val r) d) := by
  unfold iblk1
  rw [View.read_apply]
  show V c main_arg1 _ = V c main_arg1 _
  refine congrArg (V c main_arg1) (funext fun a => Fin.ext ?_)
  have hi := idx_mu t
  have hv := BlockedSum.blkIdx_val (n := 65536) (nb := 16) (bs := 4096) (by decide) (by decide) (tlt t) r
  match a with
  | ⟨0, _⟩ => show win1_1.index t 0 * 4096 + 1 * r.val = (BlockedSum.blkIdx (n := 65536) _ 4096 t.val r).val; rw [hi.1, hv]; omega
  | ⟨1, _⟩ => show win1_1.index t 1 * 128 + 1 * d.val = d.val; rw [hi.2]; omega

/-- The log-variances' block at point `t` is rows `4096·t + r`. -/
theorem read_lv (c : Dev nD) (t : Fin cfg1.N) (r : Fin 4096) (d : Fin 128) :
    iblk1 V c 2 t (ix2 r d) = V c main_arg2 (ix2 (BlockedSum.blkIdx (n := 65536) (by decide) 4096 t.val r) d) := by
  unfold iblk1
  rw [View.read_apply]
  show V c main_arg2 _ = V c main_arg2 _
  refine congrArg (V c main_arg2) (funext fun a => Fin.ext ?_)
  have hi := idx_lv t
  have hv := BlockedSum.blkIdx_val (n := 65536) (nb := 16) (bs := 4096) (by decide) (by decide) (tlt t) r
  match a with
  | ⟨0, _⟩ => show win1_2.index t 0 * 4096 + 1 * r.val = (BlockedSum.blkIdx (n := 65536) _ 4096 t.val r).val; rw [hi.1, hv]; omega
  | ⟨1, _⟩ => show win1_2.index t 1 * 128 + 1 * d.val = d.val; rw [hi.2]; omega

/-- The two rows of statistics are read whole at every point. -/
theorem read_e1 (c : Dev nD) (t : Fin cfg1.N) (d : Fin 128) :
    iblk1 V c 3 t (ix2 (0 : Fin 1) d) = V c main_v2 (ix2 (0 : Fin 1) d) := by
  unfold iblk1
  rw [View.read_apply]
  show V c main_v2 _ = V c main_v2 _
  refine congrArg (V c main_v2) (funext fun a => Fin.ext ?_)
  have hi := idx_e1 t
  match a with
  | ⟨0, _⟩ => show win1_3.index t 0 * 1 + 1 * 0 = 0; rw [hi.1]
  | ⟨1, _⟩ => show win1_3.index t 1 * 128 + 1 * d.val = d.val; rw [hi.2]; omega

theorem read_e2 (c : Dev nD) (t : Fin cfg1.N) (d : Fin 128) :
    iblk1 V c 4 t (ix2 (0 : Fin 1) d) = V c main_v4 (ix2 (0 : Fin 1) d) := by
  unfold iblk1
  rw [View.read_apply]
  show V c main_v4 _ = V c main_v4 _
  refine congrArg (V c main_v4) (funext fun a => Fin.ext ?_)
  have hi := idx_e2 t
  match a with
  | ⟨0, _⟩ => show win1_4.index t 0 * 1 + 1 * 0 = 0; rw [hi.1]
  | ⟨1, _⟩ => show win1_4.index t 1 * 128 + 1 * d.val = d.val; rw [hi.2]; omega

/-- The rows' contributions as the kernel is entered: the statistics are the two [1,128] rows it finds. -/
abbrev rowsAt (c : Dev nD) : Fin 65536 → EReal :=
  rowTermP (V c main_arg0) (V c main_arg1) (V c main_arg2) (fun d => V c main_v2 (ix2 (0 : Fin 1) d)) (fun d => V c main_v4 (ix2 (0 : Fin 1) d))

/-- Point `t`'s partial total is block `t` of the rows' contributions. -/
theorem pointTotal_eq (c : Dev nD) (t : Fin cfg1.N) :
    pointTotal V c t = BlockedSum.blockSum (n := 65536) (by decide) 4096 (rowsAt V c) t.val :=
  blockTotal_eq (iblk1 V c 0 t) (iblk1 V c 1 t) (iblk1 V c 2 t) (iblk1 V c 3 t) (iblk1 V c 4 t)
    (V c main_arg0) (V c main_arg1) (V c main_arg2) (fun d => V c main_v2 (ix2 (0 : Fin 1) d)) (fun d => V c main_v4 (ix2 (0 : Fin 1) d))
    (⟨t.val, tlt t⟩ : Fin 16) (read_x V c t) (read_mu V c t) (read_lv V c t) (read_e1 V c t) (read_e2 V c t)

/-! ## The result array -/

/-- The output block after the last point, as the contents of the [1,1] result array. -/
abbrev lastTotal (c : Dev nD) : Buf (Elt Ideal) ((c : Thread nD τ).loc main_v5) :=
  outsAt1 V c 15 (by rw [show cfg1.N = 16 from N_1]; decide)

/-- The one write-back, after point 15, writes it: the block is the whole array. -/
theorem flushed_eq (c : Dev nD) (t : Fin cfg1.N) (hf : (cfg1.win 5).flush t = true) :
    (dat1 V c).flushed 5 t = ((cfg1.win 5).blk t).view.read (Elt Ideal) (lastTotal V c) := by
  have hN : cfg1.N = 16 := N_1
  have h15 : t.val = 15 := by have := (flush1_5 t).mp hf; have := t.isLt; omega
  obtain rfl : t = t1_15 := Fin.ext h15
  show (cfg1.win 5).cut (grid1.coords t1_15) ((dat1 V c).after 5 t1_15) = _
  rw [after1_5]
  have hz' : (fun a => win1_5.index t1_15 a * main_v5.ty.shape.size a) = fun _ => 0 := funext fun a => by fin_cases a <;> decide
  exact (Memref.read_access_unit_zero (Elt Ideal) main_v5 hz' (fun a => by rw [congrFun hz' a]; simp) (lastTotal V c)).symm

theorem final5 (c : Dev nD) : (dat1 V c).arrAt 5 cfg1.N = lastTotal V c :=
  (dat1 V c).arrAt_eq_of_cover 5 (lastTotal V c) (flushed_eq V c) fun i =>
    ⟨t1_15, (flush1_5 t1_15).mpr rfl, by
      show i ∈ ((View.whole main_v5).slice (win1_5.rect t1_15)).set
      rw [View.set_slice_whole, Rect.mem_set_unit]
      intro a
      have h0 : (i 0 : Nat) < 1 := (i 0).isLt
      have h1 : (i 1 : Nat) < 1 := (i 1).isLt
      match a with
      | ⟨0, _⟩ =>
        show win1_5.index t1_15 0 * win1_5.size 0 ≤ (i 0 : Nat) ∧ (i 0 : Nat) < win1_5.index t1_15 0 * win1_5.size 0 + win1_5.xsize (grid1.coords t1_15) 0
        rw [show win1_5.index t1_15 0 * win1_5.size 0 = 0 from by decide +kernel, show win1_5.xsize (grid1.coords t1_15) 0 = 1 from by decide +kernel]; omega
      | ⟨1, _⟩ =>
        show win1_5.index t1_15 1 * win1_5.size 1 ≤ (i 1 : Nat) ∧ (i 1 : Nat) < win1_5.index t1_15 1 * win1_5.size 1 + win1_5.xsize (grid1.coords t1_15) 1
        rw [show win1_5.index t1_15 1 * win1_5.size 1 = 0 from by decide +kernel, show win1_5.xsize (grid1.coords t1_15) 1 = 1 from by decide +kernel]; omega⟩

/-- The result array's entry: the sum of all rows' contributions. -/
theorem loss_final (c : Dev nD) :
    (dat1 V c).arrAt 5 cfg1.N (ix2 (0 : Fin 1) (0 : Fin 1)) = ∑ n : Fin 65536, rowsAt V c n := by
  rw [final5 V c]
  show outsAt1 V c 15 _ (ix2 (0 : Fin 1) (0 : Fin 1)) = _
  rw [outsAt_eq V c 15 _, sum_rows]
  refine Finset.sum_congr rfl fun k hk => ?_
  have hk' : k < cfg1.N := by rw [show cfg1.N = 16 from N_1]; exact Finset.mem_range.mp hk
  rw [pointTotalN_of_lt V c k hk']
  exact pointTotal_eq V c ⟨k, hk'⟩

end Cert.Club.KLoss

end
-- ==== Proof.KernelValue.lean ====
/-
  The kernel program's result is the mean of the rows' contributions.

  The first kernel leaves the per-channel sums of the features and of their squares over all positions; divided by
  the word of 65536 they are the two means `m1`, `m2`, the rows of statistics the second kernel finds beside the
  three arguments as launched.  So the second kernel's result array holds the sum of `rowTerm` over all rows, and the
  program's result, that sum over the word of 65536, is `loss`.
-/
import proofs.«125531_j8976481649059_1_alg».proof.Proof.Glue
import proofs.«125531_j8976481649059_1_alg».proof.Proof.Stats
import proofs.«125531_j8976481649059_1_alg».proof.Proof.LossFinal

noncomputable section

open Idealize.ShloMosaic Idealize.ShloMosaic.TcCoe Idealize.SL.Sem Idealize.ShloMosaic.ValueIdx
open Idealize.ShloMosaic.Pipeline (Dat)

namespace Cert.Club.KValue

open Cert.KernelIdeal Cert.KernelIdeal.Gen

variable (m : (ℓ : Loc nD τ sig) → Buf (Elt Ideal) ℓ) (ρ : Dev nD → PrngReg)

/-- The word of 65536 copied along a [1,128] row, at an entry. -/
theorem bcN (d : Fin 128) :
    broadcastInDim S1x128 ![] Facts₀.bcast_S_S1x128 (constant (F := Ideal) S_ .f32 0x47800000#32) (ix2 (0 : Fin 1) d) = cN :=
  broadcastInDim_apply _ Facts₀.bcast_S_S1x128 _ (ix2 (0 : Fin 1) d) ix0 (fun a => a.elim0)

/-- The first kernel's first result: per channel, the sum of the features over all positions. -/
theorem sum_entry (c : Dev nD) (d : Fin 128) :
    (W1 m ρ c (Proc.devRef .tc main_v0_0) : S1x128.Idx → EReal) (ix2 (0 : Fin 1) d)
      = ∑ n : Fin 65536, flat (m ((c : Thread nD τ).loc main_arg0)) n d :=
  (congrFun (W1_arr m ρ c 1) (ix2 (0 : Fin 1) d)).trans (Stats.sum_final (V0 m ρ) c d)

/-- Its second result: per channel, the sum of the squared features. -/
theorem sumsq_entry (c : Dev nD) (d : Fin 128) :
    (W1 m ρ c (Proc.devRef .tc main_v0_1) : S1x128.Idx → EReal) (ix2 (0 : Fin 1) d)
      = ∑ n : Fin 65536, flat (m ((c : Thread nD τ).loc main_arg0)) n d * flat (m ((c : Thread nD τ).loc main_arg0)) n d :=
  (congrFun (W1_arr m ρ c 2) (ix2 (0 : Fin 1) d)).trans (Stats.sumsq_final (V0 m ρ) c d)

/-- The rows of statistics the second kernel finds are the two means. -/
theorem stat1_entry (c : Dev nD) (d : Fin 128) :
    (V2 m ρ c main_v2 : S1x128.Idx → EReal) (ix2 (0 : Fin 1) d) = m1 (m ((c : Thread nD τ).loc main_arg0)) d := by
  refine (congrFun (KGlue.stat1_eq m ρ c) (ix2 (0 : Fin 1) d)).trans ?_
  show Ideal.div ((W1 m ρ c (Proc.devRef .tc main_v0_0) : S1x128.Idx → EReal) (ix2 (0 : Fin 1) d))
    (broadcastInDim S1x128 ![] Facts₀.bcast_S_S1x128 (constant (F := Ideal) S_ .f32 0x47800000#32) (ix2 (0 : Fin 1) d)) = _
  rw [bcN, sum_entry]
  rfl

theorem stat2_entry (c : Dev nD) (d : Fin 128) :
    (V2 m ρ c main_v4 : S1x128.Idx → EReal) (ix2 (0 : Fin 1) d) = m2 (m ((c : Thread nD τ).loc main_arg0)) d := by
  refine (congrFun (KGlue.stat2_eq m ρ c) (ix2 (0 : Fin 1) d)).trans ?_
  show Ideal.div ((W1 m ρ c (Proc.devRef .tc main_v0_1) : S1x128.Idx → EReal) (ix2 (0 : Fin 1) d))
    (broadcastInDim S1x128 ![] Facts₀.bcast_S_S1x128 (constant (F := Ideal) S_ .f32 0x47800000#32) (ix2 (0 : Fin 1) d)) = _
  rw [bcN, sumsq_entry]
  rfl

/-- So the rows' contributions the second kernel sums are the result's. -/
theorem rows_eq (c : Dev nD) (n : Fin 65536) :
    KLoss.rowsAt (V2 m ρ) c n
      = rowTerm (m ((c : Thread nD τ).loc main_arg0)) (m ((c : Thread nD τ).loc main_arg1)) (m ((c : Thread nD τ).loc main_arg2)) n := by
  show rowTermP (V2 m ρ c main_arg0) (V2 m ρ c main_arg1) (V2 m ρ c main_arg2)
    (fun d => (V2 m ρ c main_v2 : S1x128.Idx → EReal) (ix2 (0 : Fin 1) d)) (fun d => (V2 m ρ c main_v4 : S1x128.Idx → EReal) (ix2 (0 : Fin 1) d)) n = _
  rw [show (fun d => (V2 m ρ c main_v2 : S1x128.Idx → EReal) (ix2 (0 : Fin 1) d)) = m1 (m ((c : Thread nD τ).loc main_arg0))
      from funext (stat1_entry m ρ c),
    show (fun d => (V2 m ρ c main_v4 : S1x128.Idx → EReal) (ix2 (0 : Fin 1) d)) = m2 (m ((c : Thread nD τ).loc main_arg0))
      from funext (stat2_entry m ρ c),
    show V2 m ρ c main_arg0 = m ((c : Thread nD τ).loc main_arg0) from KGlue.arg0_eq m ρ c,
    show V2 m ρ c main_arg1 = m ((c : Thread nD τ).loc main_arg1) from KGlue.arg1_eq m ρ c,
    show V2 m ρ c main_arg2 = m ((c : Thread nD τ).loc main_arg2) from KGlue.arg2_eq m ρ c]
  rfl

/-- The program's result. -/
theorem result_is_loss (c : Dev nD) :
    (W4 m ρ c (Proc.devRef .tc main_v7) : S_.Idx → EReal)
      = fun _ => loss (m ((c : Thread nD τ).loc main_arg0)) (m ((c : Thread nD τ).loc main_arg1)) (m ((c : Thread nD τ).loc main_arg2)) := by
  rw [KGlue.result_eq m ρ c]
  funext i
  have hcast : shapeCast S_ (W3 m ρ c (Proc.devRef .tc main_v5) : S1x1.Idx → EReal) Facts₀.shapeCasts_S1x1_S_ i
      = (W3 m ρ c (Proc.devRef .tc main_v5) : S1x1.Idx → EReal) (ix2 (0 : Fin 1) (0 : Fin 1)) :=
    shapeCast_apply _ Facts₀.shapeCasts_S1x1_S_ i (ix2 (0 : Fin 1) (0 : Fin 1)) (by
      rw [Shape.rowMajor_val_two]
      have h : (Shape.rowMajor S_ i).val < 1 := lt_of_lt_of_eq (Shape.rowMajor S_ i).isLt (by decide)
      show 0 * 1 + 0 = _
      omega)
  have hsum : (W3 m ρ c (Proc.devRef .tc main_v5) : S1x1.Idx → EReal) (ix2 (0 : Fin 1) (0 : Fin 1))
      = ∑ n : Fin 65536, rowTerm (m ((c : Thread nD τ).loc main_arg0)) (m ((c : Thread nD τ).loc main_arg1)) (m ((c : Thread nD τ).loc main_arg2)) n := by
    have e3 : (∑ n : Fin 65536, KLoss.rowsAt (V2 m ρ) c n)
        = ∑ n : Fin 65536, rowTerm (m ((c : Thread nD τ).loc main_arg0)) (m ((c : Thread nD τ).loc main_arg1)) (m ((c : Thread nD τ).loc main_arg2)) n :=
      Finset.sum_congr rfl fun n _ => rows_eq m ρ c n
    exact ((congrFun (W3_arr m ρ c 5) (ix2 (0 : Fin 1) (0 : Fin 1))).trans (KLoss.loss_final (V2 m ρ) c)).trans e3
  show Ideal.div (shapeCast S_ (W3 m ρ c (Proc.devRef .tc main_v5) : S1x1.Idx → EReal) Facts₀.shapeCasts_S1x1_S_ i)
    (Ideal.ofBits .f32 0x47800000#32) = _
  rw [hcast, hsum]
  rfl

end Cert.Club.KValue

end
-- ==== Proof.lean ====
/-
  The claim: a two-kernel program that computes a contrastive log-ratio bound is equal, over the extended reals, to
  its reference.

  Both programs take features `x` [16,128,64,64] and, one row per (batch, height, width) position, predicted means
  and log-variances [65536,128], and return the mean over the rows of

      (-1/2) · Σ_d (x_n,d - mu_n,d)² · exp(-lv_n,d)  -  (-1/2) · Σ_d exp(-lv_n,d) · (m2_d - 2 · mu_n,d · m1_d + mu_n,d²)

  where `m1`, `m2` are the per-channel means over all positions of the features and of their squares
  (`Cert.Club.loss`, Proof/Spec.lean).  The reference computes this in one pass of whole-array operations.  The
  kernel program first accumulates the two per-channel sums over the sixteen batches, divides them by 65536 on the
  host, then accumulates over the sixteen batches the partial totals of 4096 rows each, and divides by 65536 on the
  host.  The two differ only in the order and grouping of finite sums of extended reals and in writing `-a` as
  `0 - a`; no finiteness of the inputs is used.

  The reference's value is read off its run (Proof/Ref.lean); the kernel program's run names its result as the last of
  a chain of buffer contents (Proof/RunValue.lean), which the modules Stats (first kernel), LossBody … LossFinal
  (second kernel), Glue (host operations) and KernelValue (their composition) read as `loss` of the arguments.
-/
import proofs.«125531_j8976481649059_1_alg».proof.Defs
import proofs.«125531_j8976481649059_1_alg».proof.Proof.Gen.Kernel
import proofs.«125531_j8976481649059_1_alg».proof.Proof.Gen.Kernel.Frame
import proofs.«125531_j8976481649059_1_alg».proof.Proof.Gen.KernelIdeal
import proofs.«125531_j8976481649059_1_alg».proof.Proof.Gen.KernelIdeal.Frame
import proofs.«125531_j8976481649059_1_alg».proof.Proof.Gen.ReferenceIdeal
import proofs.«125531_j8976481649059_1_alg».proof.Proof.Gen.ReferenceIdeal.Run
import proofs.«125531_j8976481649059_1_alg».proof.Proof.Gen.ReferenceIdeal.Read
import proofs.«125531_j8976481649059_1_alg».proof.Proof.Gen.Pre_finite_inputs
import proofs.«125531_j8976481649059_1_alg».proof.Proof.Ref
import proofs.«125531_j8976481649059_1_alg».proof.Proof.RunValue
import proofs.«125531_j8976481649059_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel program was idealized. -/
theorem preserves : Cert.preserves_Kernel_KernelIdeal := trivial

/-- Both idealized programs end with their result at `loss` of the arguments, which agree. -/
theorem algebraic : Cert.algebraic_KernelIdeal_ReferenceIdeal := by
  intro m ρ m' ρ' _ hagree
  refine ⟨fun c => fun _ => Cert.Club.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.Club.KValue.result_is_loss m ρ c), (h c).2⟩) (Cert.Club.KRun.run_result m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v33_eq, Cert.Club.RefSide.reference_is_loss,
      (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
